-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x1024 : Shape := ⟨2, ![256, 1024]⟩
abbrev S1024 : Shape := ⟨1, ![1024]⟩
abbrev S1024x257 : Shape := ⟨2, ![1024, 257]⟩
abbrev S257 : Shape := ⟨1, ![257]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x257 : S_.BroadcastsInDim S1024x257 (![] : Fin 0 → Fin S1024x257.rank)
  reducesTo_S1024x257_S_d0_1 : S1024x257.ReducesTo [0, 1] S_
  bcast_S_S257 : S_.BroadcastsInDim S257 (![] : Fin 0 → Fin S257.rank)
  reducesTo_S257_S_d0 : S257.ReducesTo [0] S_

variable [Facts]

def fn_part1 {F : FTy → Type} [FloatOps F] (main_arg4 : FVec F S257 .f32) (main_v13 : IVec S_ 1) (main_v16 : IVec S1024x257 1) : IVec S_ 1 :=
  let main_c_5 : IVec S_ 1 := constantI S_ 1 1#1
  let main_v17 : IVec S_ 1 := (fun x v => Host.reduce IntOp.andi x v reducesTo_S1024x257_S_d0_1 h_S_) main_v16 main_c_5
  let main_v18 : IVec S_ 1 := andi main_v13 main_v17
  let main_v19 : FVec F S257 .f32 := Host.absf main_arg4
  let main_cst_6 : FVec F S_ .f32 := constant S_ .f32 0x7F800000#32
  let main_v20 : FVec F S257 .f32 := broadcastInDim S257 ![] bcast_S_S257 main_cst_6
  let main_v21 : IVec S257 1 := cmpf .olt main_v19 main_v20
  let main_c_7 : IVec S_ 1 := constantI S_ 1 1#1
  let main_v22 : IVec S_ 1 := (fun x v => Host.reduce IntOp.andi x v reducesTo_S257_S_d0 h_S_) main_v21 main_c_7
  let main_v23 : IVec S_ 1 := andi main_v18 main_v22
  main_v23

def fn {F : FTy → Type} [FloatOps F] (main_arg0 : FVec F S16384x256 .f32) (main_arg1 : FVec F S256x1024 .f32) (main_arg2 : FVec F S1024 .f32) (main_arg3 : FVec F S1024x257 .f32) (main_arg4 : FVec F S257 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x257 .f32 := Host.absf main_arg3
  let main_cst_4 : FVec F S_ .f32 := constant S_ .f32 0x7F800000#32
  let main_v15 : FVec F S1024x257 .f32 := broadcastInDim S1024x257 ![] bcast_S_S1024x257 main_cst_4
  let main_v16 : IVec S1024x257 1 := cmpf .olt main_v14 main_v15
  fn_part1 (F := F) main_arg4 main_v13 main_v16
-- ==== Kernel.lean ====
abbrev S16384x256 : Shape := ⟨2, ![16384, 256]⟩
abbrev S256x1024 : Shape := ⟨2, ![256, 1024]⟩
abbrev S1024 : Shape := ⟨1, ![1024]⟩
abbrev S1024x257 : Shape := ⟨2, ![1024, 257]⟩
abbrev S257 : Shape := ⟨1, ![257]⟩
abbrev S1x1024 : Shape := ⟨2, ![1, 1024]⟩
abbrev S1x257 : Shape := ⟨2, ![1, 257]⟩
abbrev S16384x257 : Shape := ⟨2, ![16384, 257]⟩
abbrev S512x256 : Shape := ⟨2, ![512, 256]⟩
abbrev S512x257 : Shape := ⟨2, ![512, 257]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S1024, .f32⟩
  | .hbm, ⟨3, _⟩ => ⟨S1024x257, .f32⟩
  | .hbm, ⟨4, _⟩ => ⟨S257, .f32⟩
  | .hbm, ⟨5, _⟩ => ⟨S1x1024, .f32⟩
  | .hbm, ⟨6, _⟩ => ⟨S1x257, .f32⟩
  | .hbm, ⟨7, _⟩ => ⟨S16384x257, .f32⟩
  | .local _ .vmem, ⟨0, _⟩ => ⟨S512x256, .f32⟩
  | .local _ .vmem, ⟨1, _⟩ => ⟨S512x256, .f32⟩
  | .local _ .vmem, ⟨2, _⟩ => ⟨S256x1024, .f32⟩
  | .local _ .vmem, ⟨3, _⟩ => ⟨S1x1024, .f32⟩
  | .local _ .vmem, ⟨4, _⟩ => ⟨S1024x257, .f32⟩
  | .local _ .vmem, ⟨5, _⟩ => ⟨S1x257, .f32⟩
  | .local _ .vmem, ⟨6, _⟩ => ⟨S512x257, .f32⟩
  | .local _ .vmem, ⟨7, _⟩ => ⟨S512x257, .f32⟩
  | .local _ .vmem, ⟨8, _⟩ => ⟨S256x1024, .bf16⟩
  | .local _ .vmem, ⟨9, _⟩ => ⟨S1024x257, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x257 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  shapeCasts_S257_S1x257 : S257.ShapeCasts S1x257
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S1024x257_S1024x257_0_0 : ∀ a, (![0, 0] : Fin 2 → Nat) a + S1024x257.size a ≤ S1024x257.size a
  h_S1024x257 : 0 < S1024x257.numel
  shapeCasts_S1024x257_S1024x257 : S1024x257.ShapeCasts S1024x257
  packedbf16_S1024x257_S1024x257_0_0 : (Rect.unit (s := S1024x257) ![0, 0] S1024x257.size inb_S1024x257_S1024x257_0_0).PackedRows (EltTy.packing .bf16)
  inb_S512x256_S512x256_0_0 : ∀ a, (![0, 0] : Fin 2 → Nat) a + S512x256.size a ≤ S512x256.size a
  h_S512x256 : 0 < S512x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x257_S1x257_0_0 : ∀ a, (![0, 0] : Fin 2 → Nat) a + S1x257.size a ≤ S1x257.size a
  h_S1x257 : 0 < S1x257.numel
  shapeCasts_S1x257_S1x257 : S1x257.ShapeCasts S1x257
  broadcasts_S1x257_S512x257 : S1x257.Broadcasts S512x257
  reduces_S512x257_S512 : S512x257.Reduces [1] S512
  shapeCasts_S512_S512x1 : S512.ShapeCasts S512x1
  broadcasts_S512x1_S512x257 : S512x1.Broadcasts S512x257
  slices_S512x257_o0_0_S512x256 : S512x257.Slices ![0, 0] S512x256
  slices_S512x257_o0_256_S512x1 : S512x257.Slices ![0, 256] S512x1
  reduces_S512x256_S512 : S512x256.Reduces [1] S512
  broadcasts_S512x1_S512x256 : S512x1.Broadcasts S512x256
  inb_S512x257_S512x256_0_0 : ∀ a, (![0, 0] : Fin 2 → Nat) a + S512x256.size a ≤ S512x257.size a
  inb_S512x257_S512x1_0_256 : ∀ a, (![0, 256] : Fin 2 → Nat) a + S512x1.size a ≤ S512x257.size a
  h_S512x1 : 0 < S512x1.numel
  dot_S512x256_S256x1024_S512x1024_1_0_0_1_n_n_wf : DotDims.WF S512x256 S256x1024 S512x1024 [1] [0] [0] [1] [] []
  dot_S512x1024_S1024x257_S512x257_1_0_0_1_n_n_wf : DotDims.WF S512x1024 S1024x257 S512x257 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x257.size a ≤ S1024x257.size a
  hwx0_3 : ∀ i : grid0.Coords, EltTy.bits .f32 = 32 ∨ (Rect.block (s := S1024x257) S1024x257.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x257.size a ≤ S1x257.size a
  hwx0_4 : ∀ i : grid0.Coords, EltTy.bits .f32 = 32 ∨ (Rect.block (s := S1x257) S1x257.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x257.size a ≤ S16384x257.size a
  hwx0_5 : ∀ i : grid0.Coords, EltTy.bits .f32 = 32 ∨ (Rect.block (s := S16384x257) S512x257.size (cc0_transform_5 i) (hinb0_5 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x257_S512x257_1_0_0_1_n_n : DotDims S512x1024 S1024x257 S512x257 where
  lhsContracting := [1]
  rhsContracting := [0]
  lhsNonContracting := [0]
  rhsNonContracting := [1]
  lhsBatch := []
  rhsBatch := []
  wf := dot_S512x1024_S1024x257_S512x257_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x257.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x257.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x1024 : Shape := ⟨2, ![256, 1024]⟩
abbrev S1024 : Shape := ⟨1, ![1024]⟩
abbrev S1024x257 : Shape := ⟨2, ![1024, 257]⟩
abbrev S257 : Shape := ⟨1, ![257]⟩
abbrev S16384x1024 : Shape := ⟨2, ![16384, 1024]⟩
abbrev S1x1024 : Shape := ⟨2, ![1, 1024]⟩
abbrev S_ : Shape := ⟨0, ![]⟩
abbrev S16384x257 : Shape := ⟨2, ![16384, 257]⟩
abbrev S1x257 : Shape := ⟨2, ![1, 257]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S1024, .f32⟩
  | .hbm, ⟨3, _⟩ => ⟨S1024x257, .f32⟩
  | .hbm, ⟨4, _⟩ => ⟨S257, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x257, .f32⟩
  | .hbm, ⟨13, _⟩ => ⟨S1x257, .f32⟩
  | .hbm, ⟨14, _⟩ => ⟨S16384x257, .f32⟩
  | .hbm, ⟨15, _⟩ => ⟨S16384x257, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x257, .f32⟩
  | .hbm, ⟨23, _⟩ => ⟨S16384x257, .f32⟩
  | .hbm, ⟨24, _⟩ => ⟨S16384x257, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x257, .f32⟩
  | .hbm, ⟨29, _⟩ => ⟨S16384x257, .f32⟩
  | .hbm, ⟨30, _⟩ => ⟨S_, .f32⟩
  | .hbm, ⟨31, _⟩ => ⟨S16384x256, .f32⟩
  | .hbm, ⟨32, _⟩ => ⟨S16384x256, .i1⟩
  | .hbm, ⟨33, _⟩ => ⟨S16384x256, .f32⟩
  | .hbm, ⟨34, _⟩ => ⟨S_, .f32⟩
  | .hbm, ⟨35, _⟩ => ⟨S16384x1, .f32⟩
  | .hbm, ⟨36, _⟩ => ⟨S16384x257, .f32⟩
  | .hbm, ⟨37, _⟩ => ⟨S16384x257, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x257, .f32⟩
  | .hbm, ⟨42, _⟩ => ⟨S16384x257, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S257_S1x257_1 : S257.BroadcastsInDim S1x257 (![1] : Fin 1 → Fin S1x257.rank)
  bcast_S1x257_S16384x257_0_1 : S1x257.BroadcastsInDim S16384x257 (![0, 1] : Fin 2 → Fin S16384x257.rank)
  reducesTo_S16384x257_S16384_d1 : S16384x257.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x257_0_1 : S16384x1.BroadcastsInDim S16384x257 (![0, 1] : Fin 2 → Fin S16384x257.rank)
  bcast_S_S16384x256 : S_.BroadcastsInDim S16384x256 (![] : Fin 0 → Fin S16384x256.rank)
  bcast_S_S16384x1 : S_.BroadcastsInDim S16384x1 (![] : Fin 0 → Fin S16384x1.rank)
  concatenates_S16384x256_S16384x1_S16384x257_d1 : Shape.Concatenates [S16384x256, S16384x1] S16384x257 1
  dot_S16384x256_S256x1024_S16384x1024_1_0_0_1_n_n_wf : DotDims.WF S16384x256 S256x1024 S16384x1024 [1] [0] [0] [1] [] []
  dot_S16384x1024_S1024x257_S16384x257_1_0_0_1_n_n_wf : DotDims.WF S16384x1024 S1024x257 S16384x257 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x257_S16384x257_1_0_0_1_n_n : DotDims S16384x1024 S1024x257 S16384x257 where
  lhsContracting := [1]
  rhsContracting := [0]
  lhsNonContracting := [0]
  rhsNonContracting := [1]
  lhsBatch := []
  rhsBatch := []
  wf := dot_S16384x1024_S1024x257_S16384x257_1_0_0_1_n_n_wf

class Facts : Prop extends Facts₀ where

variable [Facts]
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.RowLaw.lean ====
/-
  The masked, renormalised action distribution of ONE state row, on the extended reals, in the two arrangements
  the two programs compute it in, and the law that joins them.

  From a row of 257 logits `l` take `e a = exp (l a - max l)`. The first 256 actions are legal while the state's
  coordinate is below 2; the last action is always legal.
    * one arrangement keeps the legal exponentials, `k a = e a` if legal and `0` otherwise, and divides each by
      `(∑ over the 256 first actions of k) + e 256`;
    * the other first normalises, `p a = e a / (0 + ∑ e)`, multiplies by the 0/1 mask and divides by
      `0 + ∑ mask · p`.
  When the exponentials are positive reals both are `mask a · e a / ∑ mask · e`: the normaliser `∑ e` is a positive
  real, so it cancels, and the denominator `∑ mask · e` is at least `e 256 > 0`. On the extended reals the
  cancellation needs the values to be finite, so the law is stated for real exponentials; that the exponentials are
  real and positive when the logits are real is `expo_real`, and that the logits are real when the inputs are is
  `hid_real` and `logit_real`.
-/
import Mathlib
import Idealize.ShloMosaic.PureOps.Ideal
import proofs.«120389_g48326972014685_cont_8to1_c_388_6_alg».proof.Proof.LibSums

noncomputable section

namespace MaskedPolicy

open Idealize.ShloMosaic
open scoped BigOperators

/-- Minus infinity as the float word both programs start a row maximum from. -/
abbrev ninf : EReal := Ideal.ofBits .f32 0xFF800000#32
/-- The cap below which a state coordinate keeps its action legal, as the float word both programs compare with. -/
abbrev two : EReal := Ideal.ofBits .f32 0x40000000#32

theorem ninf_eq : ninf = ⊥ := by simp [Ideal.ofBits, Ideal.ieee]

/-! ## The row, as the fused arrangement computes it -/

/-- The hidden layer of one state row: `max (s · W1 + b1) 0`. -/
def hid (s : Fin 256 → EReal) (W1 : Fin 256 → Fin 1024 → EReal) (b1 : Fin 1024 → EReal) (j : Fin 1024) : EReal :=
  max ((∑ k : Fin 256, s k * W1 k j) + b1 j) 0

/-- The logits of one row: `h · W2 + b2`. -/
def logit (h : Fin 1024 → EReal) (W2 : Fin 1024 → Fin 257 → EReal) (b2 : Fin 257 → EReal) (a : Fin 257) : EReal :=
  (∑ j : Fin 1024, h j * W2 j a) + b2 a

/-- The largest logit of the row, folded from minus infinity. -/
def rowMax (l : Fin 257 → EReal) : EReal := (Finset.univ : Finset (Fin 257)).fold max ninf l

/-- The shifted exponentials `exp (l a - max l)`. -/
def expo (l : Fin 257 → EReal) (a : Fin 257) : EReal := Ideal.exp (l a - rowMax l)

/-- A legal action keeps its exponential, an illegal one gets zero. -/
def kept (s : Fin 256 → EReal) (e : Fin 257 → EReal) (a : Fin 256) : EReal :=
  if s a < two then e a.castSucc else 0

/-- The mass of the legal actions: the kept exponentials plus the always legal last one. -/
def denom (s : Fin 256 → EReal) (e : Fin 257 → EReal) : EReal := (∑ a : Fin 256, kept s e a) + e (Fin.last 256)

/-- The renormalised distribution: the kept exponential over the legal mass; the last action's exponential over it. -/
def policy (s : Fin 256 → EReal) (e : Fin 257 → EReal) (a : Fin 257) : EReal :=
  if h : a.val < 256 then Ideal.div (kept s e ⟨a.val, h⟩) (denom s e) else Ideal.div (e (Fin.last 256)) (denom s e)

/-! ## The row, as normalise-then-mask-then-renormalise computes it -/

/-- The 0/1 legality mask over the 257 actions. -/
def mask (s : Fin 256 → EReal) (a : Fin 257) : EReal :=
  if h : a.val < 256 then (if s ⟨a.val, h⟩ < two then 1 else 0) else 1

/-- The softmax of the row from its shifted exponentials. -/
def softmax (e : Fin 257 → EReal) (a : Fin 257) : EReal := Ideal.div (e a) (0 + ∑ a' : Fin 257, e a')

/-- The masked probabilities. -/
def masked (s : Fin 256 → EReal) (e : Fin 257 → EReal) (a : Fin 257) : EReal := mask s a * softmax e a

/-- The masked probabilities divided by their sum. -/
def policyRef (s : Fin 256 → EReal) (e : Fin 257 → EReal) (a : Fin 257) : EReal :=
  Ideal.div (masked s e a) (0 + ∑ a' : Fin 257, masked s e a')

/-! ## The law -/

/-- The inclusion of the reals in the extended reals commutes with `max`: it is monotone. -/
theorem coe_max (x y : ℝ) : max (x : EReal) (y : EReal) = ((max x y : ℝ) : EReal) :=
  (EReal.coe_strictMono.monotone.map_max).symm

/-- A quotient of reals with a nonzero divisor, taken on the extended reals, is the real quotient. -/
theorem div_coe_coe (x y : ℝ) (hy : y ≠ 0) : Ideal.div (x : EReal) (y : EReal) = ((x / y : ℝ) : EReal) := by
  rw [Ideal.div_coe hy, ← EReal.coe_mul, mul_one_div]

/-- For positive real exponentials the two arrangements agree, entry by entry: both are
    `mask a · e a / ∑ mask · e`. -/
theorem policyRef_eq (s : Fin 256 → EReal) (e : Fin 257 → ℝ) (he : ∀ a, 0 < e a) (a : Fin 257) :
    policyRef s (fun a => (e a : EReal)) a = policy s (fun a => (e a : EReal)) a := by
  classical
  -- the mask as a real
  let m : Fin 257 → ℝ := fun a => if h : a.val < 256 then (if s ⟨a.val, h⟩ < two then 1 else 0) else 1
  have hmask : ∀ a, mask s a = (m a : EReal) := by
    intro a
    show (if h : a.val < 256 then (if s ⟨a.val, h⟩ < two then (1 : EReal) else 0) else 1)
      = ((if h : a.val < 256 then (if s ⟨a.val, h⟩ < two then (1 : ℝ) else 0) else 1 : ℝ) : EReal)
    split_ifs <;> simp
  have hm0 : ∀ a, 0 ≤ m a := by
    intro a
    show 0 ≤ (if h : a.val < 256 then (if s ⟨a.val, h⟩ < two then (1 : ℝ) else 0) else 1)
    split_ifs <;> norm_num
  have hml : m (Fin.last 256) = 1 := dif_neg (by simp)
  have hmc : ∀ b : Fin 256, m b.castSucc = if s b < two then 1 else 0 := fun b => dif_pos b.isLt
  -- the normaliser
  let S : ℝ := ∑ a, e a
  have hS : 0 < S := Finset.sum_pos (fun a _ => he a) Finset.univ_nonempty
  have hsum : (0 : EReal) + ∑ a' : Fin 257, ((e a' : ℝ) : EReal) = (S : EReal) := by
    rw [zero_add, ← Cert.LibSums.coe_sum_univ]
  have hsoft : ∀ a, softmax (fun a => (e a : EReal)) a = ((e a / S : ℝ) : EReal) := by
    intro a
    show Ideal.div (e a : EReal) (0 + ∑ a' : Fin 257, ((e a' : ℝ) : EReal)) = _
    rw [hsum]; exact div_coe_coe _ _ hS.ne'
  have hmasked : ∀ a, masked s (fun a => (e a : EReal)) a = ((m a * (e a / S) : ℝ) : EReal) := by
    intro a
    show mask s a * softmax (fun a => (e a : EReal)) a = _
    rw [hmask, hsoft, ← EReal.coe_mul]
  -- the legal mass
  let D : ℝ := ∑ a, m a * e a
  have hD : 0 < D := by
    have h1 : m (Fin.last 256) * e (Fin.last 256) ≤ D :=
      Finset.single_le_sum (f := fun a => m a * e a) (fun a _ => mul_nonneg (hm0 a) (he a).le) (Finset.mem_univ _)
    rw [hml, one_mul] at h1
    exact lt_of_lt_of_le (he _) h1
  have hT : (0 : EReal) + ∑ a' : Fin 257, masked s (fun a => (e a : EReal)) a' = ((D / S : ℝ) : EReal) := by
    rw [zero_add]
    simp only [hmasked]
    rw [← Cert.LibSums.coe_sum_univ]
    congr 1
    show ∑ a, m a * (e a / S) = (∑ a, m a * e a) / S
    rw [Finset.sum_div]
    exact Finset.sum_congr rfl fun a _ => (mul_div_assoc _ _ _).symm
  have hDS : D / S ≠ 0 := (div_pos hD hS).ne'
  -- the second arrangement
  have hR : policyRef s (fun a => (e a : EReal)) a = ((m a * e a / D : ℝ) : EReal) := by
    show Ideal.div (masked s (fun a => (e a : EReal)) a) (0 + ∑ a' : Fin 257, masked s (fun a => (e a : EReal)) a') = _
    rw [hT, hmasked, div_coe_coe _ _ hDS]
    congr 1
    field_simp
  -- the first arrangement
  have hkept : ∀ b : Fin 256, kept s (fun a => (e a : EReal)) b = ((m b.castSucc * e b.castSucc : ℝ) : EReal) := by
    intro b
    show (if s b < two then ((e b.castSucc : ℝ) : EReal) else 0) = _
    rw [hmc]
    split_ifs <;> simp
  have hden : denom s (fun a => (e a : EReal)) = (D : EReal) := by
    show (∑ b : Fin 256, kept s (fun a => (e a : EReal)) b) + ((e (Fin.last 256) : ℝ) : EReal) = _
    simp only [hkept]
    rw [← Cert.LibSums.coe_sum_univ, ← EReal.coe_add]
    congr 1
    show _ = ∑ a, m a * e a
    have h257 := Fin.sum_univ_castSucc (fun a : Fin 257 => m a * e a)
    rw [h257, hml, one_mul]
  rw [hR]
  show _ = (if h : a.val < 256 then Ideal.div (kept s (fun a => (e a : EReal)) ⟨a.val, h⟩) (denom s (fun a => (e a : EReal)))
    else Ideal.div ((e (Fin.last 256) : ℝ) : EReal) (denom s (fun a => (e a : EReal))))
  rw [hden]
  by_cases h : a.val < 256
  · rw [dif_pos h, hkept, div_coe_coe _ _ hD.ne']
    have ha : (⟨a.val, h⟩ : Fin 256).castSucc = a := Fin.ext rfl
    rw [ha]
  · rw [dif_neg h, div_coe_coe _ _ hD.ne']
    have ha : a = Fin.last 256 := Fin.ext (by have := a.isLt; simp only [Fin.val_last]; omega)
    rw [ha, hml, one_mul]

/-! ## Real inputs give real logits and positive real exponentials -/

/-- The hidden layer of real inputs is real. -/
theorem hid_real (s : Fin 256 → ℝ) (W1 : Fin 256 → Fin 1024 → ℝ) (b1 : Fin 1024 → ℝ) (j : Fin 1024) :
    hid (fun k => (s k : EReal)) (fun k j => (W1 k j : EReal)) (fun j => (b1 j : EReal)) j
      = ((max ((∑ k : Fin 256, s k * W1 k j) + b1 j) 0 : ℝ) : EReal) := by
  show max ((∑ k : Fin 256, (s k : EReal) * (W1 k j : EReal)) + (b1 j : EReal)) 0 = _
  simp only [← EReal.coe_mul]
  rw [← Cert.LibSums.coe_sum_univ, ← EReal.coe_add, ← EReal.coe_zero]
  exact coe_max _ _

/-- The logits of a real hidden layer and real weights are real. -/
theorem logit_real (h : Fin 1024 → ℝ) (W2 : Fin 1024 → Fin 257 → ℝ) (b2 : Fin 257 → ℝ) (a : Fin 257) :
    logit (fun j => (h j : EReal)) (fun j a => (W2 j a : EReal)) (fun a => (b2 a : EReal)) a
      = (((∑ j : Fin 1024, h j * W2 j a) + b2 a : ℝ) : EReal) := by
  show (∑ j : Fin 1024, (h j : EReal) * (W2 j a : EReal)) + (b2 a : EReal) = _
  simp only [← EReal.coe_mul]
  rw [← Cert.LibSums.coe_sum_univ, ← EReal.coe_add]

/-- A fold of `max` from minus infinity over a nonempty finite family of reals is one of them. -/
theorem fold_max_real {ι : Type*} (t : Finset ι) (l : ι → ℝ) (ht : t.Nonempty) :
    ∃ x : ℝ, t.fold max ninf (fun a => (l a : EReal)) = (x : EReal) := by
  classical
  induction t using Finset.induction_on with
  | empty => exact absurd ht Finset.not_nonempty_empty
  | insert a t ha ih =>
    rw [Finset.fold_insert ha]
    by_cases hne : t.Nonempty
    · obtain ⟨x, hx⟩ := ih hne
      exact ⟨max (l a) x, by rw [hx]; exact coe_max _ _⟩
    · rw [Finset.not_nonempty_iff_eq_empty.mp hne, Finset.fold_empty, ninf_eq]
      exact ⟨l a, max_eq_left bot_le⟩

/-- The shifted exponentials of real logits are positive reals. -/
theorem expo_real (l : Fin 257 → ℝ) :
    ∃ e : Fin 257 → ℝ, (∀ a, 0 < e a) ∧ expo (fun a => (l a : EReal)) = fun a => (e a : EReal) := by
  obtain ⟨M, hM⟩ := fold_max_real (Finset.univ : Finset (Fin 257)) l Finset.univ_nonempty
  refine ⟨fun a => Real.exp (l a - M), fun a => Real.exp_pos _, funext fun a => ?_⟩
  show Ideal.exp ((l a : EReal) - rowMax (fun a => (l a : EReal))) = _
  rw [show rowMax (fun a => (l a : EReal)) = (M : EReal) from hM, ← EReal.coe_sub, Ideal.exp_coe]

/-- THE LAW: on real logits, normalise-then-mask-then-renormalise is the fused arrangement. -/
theorem policyRef_expo_eq (s : Fin 256 → EReal) (l : Fin 257 → ℝ) (a : Fin 257) :
    policyRef s (expo (fun a => (l a : EReal))) a = policy s (expo (fun a => (l a : EReal))) a := by
  obtain ⟨e, he, hE⟩ := expo_real l
  rw [hE]
  exact policyRef_eq s e he a

end MaskedPolicy

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.KernelRow.lean ====
/-
  The body's arithmetic read at one entry, on the extended reals. For a block of 512 state rows `x0`, the two weight
  matrices as the body finds them (`w1`, `w3`) and the two bias rows (`x2`, `x4`), the value stored at row `r`
  and action `a` depends on row `r` of `x0` only: it is the masked, renormalised distribution of that row.
-/
import proofs.«120389_g48326972014685_cont_8to1_c_388_6_alg».proof.Proof.Gen.KernelIdeal.Skeleton
import proofs.«120389_g48326972014685_cont_8to1_c_388_6_alg».proof.Proof.RowLaw
import proofs.«120389_g48326972014685_cont_8to1_c_388_6_alg».proof.Proof.LibPlainDot
import proofs.«120389_g48326972014685_cont_8to1_c_388_6_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody

noncomputable section

namespace Cert.KernelIdeal.Row

open Cert.KernelIdeal Cert.KernelIdeal.Gen Idealize.ShloMosaic Idealize.ShloMosaic.ValueIdx MaskedPolicy
open Idealize.ShloMosaic.Keepdims

/-! ## The two matrix products' dimension numbers are plain -/

theorem plain1 : PlainDot.IsPlain (M := 512) (K := 256) (N := 1024) dot_S512x256_S256x1024_S512x1024_1_0_0_1_n_n where
  rank := rfl
  size := rfl
  lhs0 := fun i q => by
    unfold DotDims.lhsIdx
    rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
    rfl
  lhs1 := fun i q => dot_S512x256_S256x1024_S512x1024_1_0_0_1_n_n.lhsIdx_val_of_single rfl i q
  rhs0 := fun i q => dot_S512x256_S256x1024_S512x1024_1_0_0_1_n_n.rhsIdx_val_of_single rfl i q
  rhs1 := fun i q => by
    unfold DotDims.rhsIdx
    rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
    rfl

theorem plain2 : PlainDot.IsPlain (M := 512) (K := 1024) (N := 257) dot_S512x1024_S1024x257_S512x257_1_0_0_1_n_n where
  rank := rfl
  size := rfl
  lhs0 := fun i q => by
    unfold DotDims.lhsIdx
    rw [dif_neg (show ¬(0 : Fin S512x1024.rank) ∈ dot_S512x1024_S1024x257_S512x257_1_0_0_1_n_n.lhsBatch by decide), dif_pos (show (0 : Fin S512x1024.rank) ∈ dot_S512x1024_S1024x257_S512x257_1_0_0_1_n_n.lhsNonContracting by decide)]
    rfl
  lhs1 := fun i q => dot_S512x1024_S1024x257_S512x257_1_0_0_1_n_n.lhsIdx_val_of_single rfl i q
  rhs0 := fun i q => dot_S512x1024_S1024x257_S512x257_1_0_0_1_n_n.rhsIdx_val_of_single rfl i q
  rhs1 := fun i q => by
    unfold DotDims.rhsIdx
    rw [dif_neg (show ¬(1 : Fin S1024x257.rank) ∈ dot_S512x1024_S1024x257_S512x257_1_0_0_1_n_n.rhsBatch by decide), dif_pos (show (1 : Fin S1024x257.rank) ∈ dot_S512x1024_S1024x257_S512x257_1_0_0_1_n_n.rhsNonContracting by decide)]
    rfl

variable (x0 : FVec Ideal S512x256 .f32) (w1 : FVec Ideal S256x1024 .bf16) (x2 : FVec Ideal S1x1024 .f32)
  (w3 : FVec Ideal S1024x257 .bf16) (x4 : FVec Ideal S1x257 .f32)

/-! ## The row's data -/

/-- Row `r` of the block of states. -/
def srow (r : Fin 512) : Fin 256 → EReal := fun k => x0 (ix2 r k)
/-- The first weight matrix by coordinates. -/
def W1f : Fin 256 → Fin 1024 → EReal := fun k j => w1 (ix2 k j)
/-- The first bias, a row vector. -/
def b1f : Fin 1024 → EReal := fun j => x2 (ix2 (0 : Fin 1) j)
/-- The second weight matrix by coordinates. -/
def W2f : Fin 1024 → Fin 257 → EReal := fun j a => w3 (ix2 j a)
/-- The second bias, a row vector. -/
def b2f : Fin 257 → EReal := fun a => x4 (ix2 (0 : Fin 1) a)
/-- The logits of row `r`. -/
def lrow (r : Fin 512) : Fin 257 → EReal := logit (hid (srow x0 r) (W1f w1) (b1f x2)) (W2f w3) (b2f x4)

/-! ## The hidden layer and the logits, as the body spells them -/

/-- The hidden activations of the block: product, bias, maximum with zero. -/
abbrev hidV : FVec Ideal S512x1024 .f32 :=
  maximumf (addf (matmul (φ₁ := .bf16) (φ₂ := .bf16) dot_S512x256_S256x1024_S512x1024_1_0_0_1_n_n none (truncf .bf16 x0 bitsLt_bf16_f32) w1 (constant S512x1024 .f32 0x00000000#32))
      (broadcastTo S512x1024 (shapeCast S1x1024 x2 shapeCasts_S1x1024_S1x1024) broadcasts_S1x1024_S512x1024))
    (broadcast S512x1024 (Scalar.ofBits .f32 0x00000000#32))

/-- The logits of the block: product with the second matrix, bias. -/
abbrev logV : FVec Ideal S512x257 .f32 :=
  addf (matmul (φ₁ := .bf16) (φ₂ := .bf16) dot_S512x1024_S1024x257_S512x257_1_0_0_1_n_n none (truncf .bf16 (hidV x0 w1 x2) bitsLt_bf16_f32) w3 (constant S512x257 .f32 0x00000000#32))
    (broadcastTo S512x257 (shapeCast S1x257 x4 shapeCasts_S1x257_S1x257) broadcasts_S1x257_S512x257)

theorem hidV_apply (r : Fin 512) (j : Fin 1024) :
    hidV x0 w1 x2 (ix2 r j) = hid (srow x0 r) (W1f w1) (b1f x2) j := by
  show max ((FloatOps.matmul (φ₁ := .bf16) (φ₂ := .bf16) dot_S512x256_S256x1024_S512x1024_1_0_0_1_n_n none (truncf .bf16 x0 bitsLt_bf16_f32) w1 (constant (F := Ideal) ⟨2, ![512, 1024]⟩ .f32 0x00000000#32) (ix2 r j))
      + broadcastTo S512x1024 (shapeCast S1x1024 x2 shapeCasts_S1x1024_S1x1024) broadcasts_S1x1024_S512x1024 (ix2 r j))
    (Ideal.ofBits .f32 0x00000000#32) = _
  rw [PlainDot.matmul_zero_apply _ plain1, shapeCast_self, broadcastTo_1b_ab_apply, Ideal.ofBits_zero_f32]
  rfl

theorem logV_apply (r : Fin 512) (a : Fin 257) :
    logV x0 w1 x2 w3 x4 (ix2 r a) = lrow x0 w1 x2 w3 x4 r a := by
  show (FloatOps.matmul (φ₁ := .bf16) (φ₂ := .bf16) dot_S512x1024_S1024x257_S512x257_1_0_0_1_n_n none (truncf .bf16 (hidV x0 w1 x2) bitsLt_bf16_f32) w3 (constant (F := Ideal) ⟨2, ![512, 257]⟩ .f32 0x00000000#32) (ix2 r a))
      + broadcastTo S512x257 (shapeCast S1x257 x4 shapeCasts_S1x257_S1x257) broadcasts_S1x257_S512x257 (ix2 r a) = _
  rw [PlainDot.matmul_zero_apply _ plain2, shapeCast_self, broadcastTo_1b_ab_apply]
  show (∑ k : Fin 1024, hidV x0 w1 x2 (ix2 r k) * w3 (ix2 k a)) + x4 (ix2 (0 : Fin 1) a) = _
  simp only [hidV_apply]
  rfl

/-! ## The payloads at an entry -/

/-- Row `r`'s index with a column inserted, for the maximum over the 257 actions … -/
theorem lift_max (r : Fin 512) (k : Fin 257) : reduces_S512x257_S512.lift (ix1 r) k = ix2 r k :=
  funext fun a => Fin.ext (by match a with | ⟨0, _⟩ => rfl | ⟨1, _⟩ => rfl)
/-- … and for the sum over the 256 first actions. -/
theorem lift_sum (r : Fin 512) (k : Fin 256) : reduces_S512x256_S512.lift (ix1 r) k = ix2 r k :=
  funext fun a => Fin.ext (by match a with | ⟨0, _⟩ => rfl | ⟨1, _⟩ => rfl)

/-- A select on "x is below y" is the `if`. -/
theorem select_olt (x y A B : EReal) : Scalar.select (Ideal.cmp .olt x y) A B = if x < y then A else B := by
  unfold Scalar.select Ideal.cmp
  by_cases h : x < y <;> simp [h]

/-- The shifted exponentials of the block: entry (r, a) is `exp (l a - max l)` of row `r`'s logits. -/
theorem pay4_apply (r : Fin 512) (a : Fin 257) :
    k0_pay4 (F := Ideal) x0 w1 x2 w3 x4 (ix2 r a) = expo (lrow x0 w1 x2 w3 x4 r) a := by
  show Ideal.exp (logV x0 w1 x2 w3 x4 (ix2 r a)
      - broadcastTo S512x257 (shapeCast S512x1 (multiReduction .maximumf [1] S512 (logV x0 w1 x2 w3 x4) 0xFF800000#32 reduces_S512x257_S512 (.inl rfl) rfl) shapeCasts_S512_S512x1) broadcasts_S512x1_S512x257 (ix2 r a)) = _
  rw [broadcastTo_a1_ab_apply, shapeCast_a_a1_apply]
  refine (congrArg (fun z => Ideal.exp (logV x0 w1 x2 w3 x4 (ix2 r a) - z))
    (Ideal.multiReduction_maximumf_single (logV x0 w1 x2 w3 x4) 0xFF800000#32 reduces_S512x257_S512 (.inl rfl) rfl (ix1 r))).trans ?_
  rw [logV_apply]
  have hf : (logV x0 w1 x2 w3 x4 ∘ reduces_S512x257_S512.lift (ix1 r)) = lrow x0 w1 x2 w3 x4 r :=
    funext fun (k : Fin 257) => (congrArg (logV x0 w1 x2 w3 x4) (lift_max r k)).trans (logV_apply x0 w1 x2 w3 x4 r k)
  rw [hf]
  rfl

/-- The kept exponentials: entry (r, a), a < 256, is the exponential if the state's coordinate is below the cap, else 0. -/
theorem pay5_apply (r : Fin 512) (a : Fin 256) :
    k0_pay5 (F := Ideal) x0 w1 x2 w3 x4 (ix2 r a) = kept (srow x0 r) (expo (lrow x0 w1 x2 w3 x4 r)) a := by
  show Scalar.select (Ideal.cmp .olt (x0 (ix2 r a)) (Ideal.ofBits .f32 0x40000000#32))
      (extractStridedSlice S512x256 ![0, 0] (k0_pay4 (F := Ideal) x0 w1 x2 w3 x4) slices_S512x257_o0_0_S512x256 (ix2 r a))
      (Ideal.ofBits .f32 0x00000000#32) = _
  rw [select_olt, Ideal.ofBits_zero_f32,
    extractStridedSlice_apply ![0, 0] (k0_pay4 (F := Ideal) x0 w1 x2 w3 x4) slices_S512x257_o0_0_S512x256 (ix2 r a) (ix2 r a.castSucc)
      (fun ax => by match ax with | ⟨0, _⟩ => exact (Nat.zero_add _).symm | ⟨1, _⟩ => exact (Nat.zero_add _).symm),
    pay4_apply]
  rfl

/-- The last action's exponential, as a column. -/
theorem pay6_apply (r : Fin 512) (u : Fin 1) :
    k0_pay6 (F := Ideal) x0 w1 x2 w3 x4 (ix2 r u) = expo (lrow x0 w1 x2 w3 x4 r) (Fin.last 256) := by
  show extractStridedSlice S512x1 ![0, 256] (k0_pay4 (F := Ideal) x0 w1 x2 w3 x4) slices_S512x257_o0_256_S512x1 (ix2 r u) = _
  rw [extractStridedSlice_apply ![0, 256] (k0_pay4 (F := Ideal) x0 w1 x2 w3 x4) slices_S512x257_o0_256_S512x1 (ix2 r u) (ix2 r (Fin.last 256))
      (fun ax => by
        match ax with
        | ⟨0, _⟩ => exact (Nat.zero_add _).symm
        | ⟨1, _⟩ => show 256 = 256 + u.val; omega),
    pay4_apply]

/-- The legal mass of row `r`, as a column. -/
theorem pay7_apply (r : Fin 512) (u : Fin 1) :
    k0_pay7 (F := Ideal) x0 w1 x2 w3 x4 (ix2 r u) = denom (srow x0 r) (expo (lrow x0 w1 x2 w3 x4 r)) := by
  show shapeCast S512x1 (multiReduction .add [1] S512 (k0_pay5 (F := Ideal) x0 w1 x2 w3 x4) 0x00000000#32 reduces_S512x256_S512 (.inl rfl) rfl) shapeCasts_S512_S512x1 (ix2 r u)
      + k0_pay6 (F := Ideal) x0 w1 x2 w3 x4 (ix2 r u) = _
  rw [shapeCast_a_a1_apply, pay6_apply]
  refine (congrArg (fun z => z + expo (lrow x0 w1 x2 w3 x4 r) (Fin.last 256))
    (Ideal.multiReduction_add_single (k0_pay5 (F := Ideal) x0 w1 x2 w3 x4) 0x00000000#32 reduces_S512x256_S512 (.inl rfl) rfl (ix1 r))).trans ?_
  unfold denom
  congr 1
  refine Finset.sum_congr rfl fun (k : Fin 256) _ => ?_
  exact (congrArg (k0_pay5 (F := Ideal) x0 w1 x2 w3 x4) (lift_sum r k)).trans (pay5_apply x0 w1 x2 w3 x4 r k)

/-- The first 256 columns stored: kept exponential over legal mass. -/
theorem pay8_apply (r : Fin 512) (a : Fin 256) :
    k0_pay8 (F := Ideal) x0 w1 x2 w3 x4 (ix2 r a)
      = Ideal.div (kept (srow x0 r) (expo (lrow x0 w1 x2 w3 x4 r)) a) (denom (srow x0 r) (expo (lrow x0 w1 x2 w3 x4 r))) := by
  show Ideal.div (k0_pay5 (F := Ideal) x0 w1 x2 w3 x4 (ix2 r a))
      (broadcastTo S512x256 (k0_pay7 (F := Ideal) x0 w1 x2 w3 x4) broadcasts_S512x1_S512x256 (ix2 r a)) = _
  rw [broadcastTo_a1_ab_apply, pay5_apply, pay7_apply]

/-- The last column stored: the last action's exponential over legal mass. -/
theorem pay1_apply (r : Fin 512) (u : Fin 1) :
    k0_pay1 (F := Ideal) (k0_pay6 (F := Ideal) x0 w1 x2 w3 x4) (k0_pay7 (F := Ideal) x0 w1 x2 w3 x4) (ix2 r u)
      = Ideal.div (expo (lrow x0 w1 x2 w3 x4 r) (Fin.last 256)) (denom (srow x0 r) (expo (lrow x0 w1 x2 w3 x4 r))) := by
  show Ideal.div (k0_pay6 (F := Ideal) x0 w1 x2 w3 x4 (ix2 r u)) (k0_pay7 (F := Ideal) x0 w1 x2 w3 x4 (ix2 r u)) = _
  rw [pay6_apply, pay7_apply]

end Cert.KernelIdeal.Row

/-! ## The block the body leaves -/

namespace Cert.KernelIdeal.Block

open Cert.KernelIdeal Cert.KernelIdeal.Gen Idealize.ShloMosaic Idealize.ShloMosaic.ValueIdx MaskedPolicy

/-- What the body leaves in the output's block, whatever it held: its two stores, the 256 first columns and then
    the last one, read back. -/
def blockOut {F : FTy → Type} [FloatOps F] (x0 : Vec F S512x256 .f32) (w1 : Vec F S256x1024 .bf16) (x2 : Vec F S1x1024 .f32)
    (w3 : Vec F S1024x257 .bf16) (x4 : Vec F S1x257 .f32) : Vec F S512x257 .f32 :=
  View.canon [⟨Rect.unit ![0, 256] ![512, 1] inb_S512x257_S512x1_0_256, k0_pay1 (k0_pay6 x0 w1 x2 w3 x4) (k0_pay7 x0 w1 x2 w3 x4)⟩,
    ⟨Rect.unit ![0, 0] ![512, 256] inb_S512x257_S512x256_0_0, k0_pay8 x0 w1 x2 w3 x4⟩]

open Cert.KernelIdeal.Row in
/-- On the extended reals entry (r, a) of that block is the renormalised distribution of row `r` at action `a`. -/
theorem blockOut_apply (x0 : FVec Ideal S512x256 .f32) (w1 : FVec Ideal S256x1024 .bf16) (x2 : FVec Ideal S1x1024 .f32)
    (w3 : FVec Ideal S1024x257 .bf16) (x4 : FVec Ideal S1x257 .f32) (r : Fin 512) (a : Fin 257) :
    blockOut (F := Ideal) x0 w1 x2 w3 x4 (ix2 r a) = policy (srow x0 r) (expo (lrow x0 w1 x2 w3 x4 r)) a := by
  unfold blockOut policy
  by_cases h : a.val < 256
  · rw [dif_pos h]
    refine (View.canon_cons_of_not_mem _ _ (fun hm => ?_)).trans ?_
    · have h1 := ((Rect.mem_set_unit (inb := inb_S512x257_S512x1_0_256)).mp hm 1).1
      have : (256 : Nat) ≤ a.val := h1
      omega
    have e : (ix2 r a : S512x257.Idx)
        = (Rect.unit (s := S512x257) ![0, 0] ![512, 256] inb_S512x257_S512x256_0_0).emb (ix2 r (⟨a.val, h⟩ : Fin 256)) :=
      funext fun ax => Fin.ext (by
        rw [Rect.emb_apply]
        match ax with
        | ⟨0, _⟩ => show r.val = 0 + 1 * r.val; omega
        | ⟨1, _⟩ => show a.val = 0 + 1 * a.val; omega)
    rw [e, View.canon_cons_emb, pay8_apply]
  · rw [dif_neg h]
    have ha : a.val = 256 := by have := a.isLt; omega
    have e : (ix2 r a : S512x257.Idx)
        = (Rect.unit (s := S512x257) ![0, 256] ![512, 1] inb_S512x257_S512x1_0_256).emb (ix2 r (0 : Fin 1)) :=
      funext fun ax => Fin.ext (by
        rw [Rect.emb_apply]
        match ax with
        | ⟨0, _⟩ => show r.val = 0 + 1 * r.val; omega
        | ⟨1, _⟩ => show a.val = 256 + 1 * 0; omega)
    rw [e, View.canon_cons_emb, pay1_apply]

end Cert.KernelIdeal.Block

end
-- ==== Proof.KernelPieces.lean ====
/-
  What one run of the body leaves behind, as values. At the grid's first point the body first copies the two weight
  matrices, narrowed to bf16, into its two scratch buffers, and at every point it then computes the output block from
  the block of states, the two scratch buffers and the two bias rows. So the scratch buffers hold the narrowed weights
  after the first point and are left alone afterwards, and the output block is one function (`blockOut`) of the
  states' block, the scratch contents and the biases, the same at the first point and at the later ones.
-/
import proofs.«120389_g48326972014685_cont_8to1_c_388_6_alg».proof.Proof.Gen.KernelIdeal.Frame
import proofs.«120389_g48326972014685_cont_8to1_c_388_6_alg».proof.Proof.KernelRow
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen Cert.KernelIdeal.Block

variable {F : FTy → Type} [FloatOps F]

theorem hz : (![0, 0] : Fin 2 → Nat) = fun _ => 0 := funext fun a => by fin_cases a <;> rfl

/-- At the first point the first scratch buffer ends holding the first weight matrix, narrowed. -/
theorem scratch0_first (c : Dev nD) (i : grid0.Coords) (arg1 : Memref sig .tc .vmem S512x256 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x257 .f32) (harg4 : arg4.IsWhole) (arg5 : Memref sig .tc .vmem S1x257 .f32) (harg5 : arg5.IsWhole) (arg6 : Memref sig .tc .vmem S512x257 .f32) (harg6 : arg6.IsWhole) (arg7 : Memref sig .tc .vmem S256x1024 .bf16) (harg7 : arg7.IsWhole) (arg8 : Memref sig .tc .vmem S1024x257 .bf16) (harg8 : arg8.IsWhole) (hc0 : cond0_0 i) (x0 : Vec F S512x256 .f32) (x1 : Vec F S256x1024 .f32) (x2 : Vec F S1x1024 .f32) (x3 : Vec F S1024x257 .f32) (x4 : Vec F S1x257 .f32) :
    sout0_A_0 c i arg1 harg1 arg2 harg2 arg3 harg3 arg4 harg4 arg5 harg5 arg6 harg6 arg7 harg7 arg8 harg8 hc0 x0 x1 x2 x3 x4 = k0_pay2 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, View.ld_unit_zero (S := S256x1024) hz]

/-- At the first point the second scratch buffer ends holding the second weight matrix, narrowed. -/
theorem scratch1_first (c : Dev nD) (i : grid0.Coords) (arg1 : Memref sig .tc .vmem S512x256 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x257 .f32) (harg4 : arg4.IsWhole) (arg5 : Memref sig .tc .vmem S1x257 .f32) (harg5 : arg5.IsWhole) (arg6 : Memref sig .tc .vmem S512x257 .f32) (harg6 : arg6.IsWhole) (arg7 : Memref sig .tc .vmem S256x1024 .bf16) (harg7 : arg7.IsWhole) (arg8 : Memref sig .tc .vmem S1024x257 .bf16) (harg8 : arg8.IsWhole) (hc0 : cond0_0 i) (x0 : Vec F S512x256 .f32) (x1 : Vec F S256x1024 .f32) (x2 : Vec F S1x1024 .f32) (x3 : Vec F S1024x257 .f32) (x4 : Vec F S1x257 .f32) :
    sout0_A_1 c i arg1 harg1 arg2 harg2 arg3 harg3 arg4 harg4 arg5 harg5 arg6 harg6 arg7 harg7 arg8 harg8 hc0 x0 x1 x2 x3 x4 = k0_pay3 x3 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg4.read_unread, View.ld_unit_zero (S := S1024x257) hz]

/-- At the first point the output block is `blockOut` of the states' block, the weights just narrowed and the biases:
    the body reads the scratch buffers back right after filling them. -/
theorem out_first (c : Dev nD) (i : grid0.Coords) (arg1 : Memref sig .tc .vmem S512x256 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x257 .f32) (harg4 : arg4.IsWhole) (arg5 : Memref sig .tc .vmem S1x257 .f32) (harg5 : arg5.IsWhole) (arg6 : Memref sig .tc .vmem S512x257 .f32) (harg6 : arg6.IsWhole) (arg7 : Memref sig .tc .vmem S256x1024 .bf16) (harg7 : arg7.IsWhole) (arg8 : Memref sig .tc .vmem S1024x257 .bf16) (harg8 : arg8.IsWhole) (hc0 : cond0_0 i) (x0 : Vec F S512x256 .f32) (x1 : Vec F S256x1024 .f32) (x2 : Vec F S1x1024 .f32) (x3 : Vec F S1024x257 .f32) (x4 : Vec F S1x257 .f32) :
    out0_A_5 c i arg1 harg1 arg2 harg2 arg3 harg3 arg4 harg4 arg5 harg5 arg6 harg6 arg7 harg7 arg8 harg8 hc0 x0 x1 x2 x3 x4 = blockOut x0 (k0_pay2 x1) x2 (k0_pay3 x3) x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S512x256) hz, View.ld_unit_zero (S := S256x1024) hz, View.ld_unit_zero (S := S1x1024) hz,
    View.ld_unit_zero (S := S1024x257) hz, View.ld_unit_zero (S := S1x257) hz,
    View.readCov_unit_zero (S := S256x1024) _ hz, View.readCov_unit_zero (S := S1024x257) _ hz]
  rfl

/-- At a later point the output block is `blockOut` of the states' block, what the scratch buffers hold and the biases. -/
theorem out_later (c : Dev nD) (i : grid0.Coords) (arg1 : Memref sig .tc .vmem S512x256 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x257 .f32) (harg4 : arg4.IsWhole) (arg5 : Memref sig .tc .vmem S1x257 .f32) (harg5 : arg5.IsWhole) (arg6 : Memref sig .tc .vmem S512x257 .f32) (harg6 : arg6.IsWhole) (arg7 : Memref sig .tc .vmem S256x1024 .bf16) (harg7 : arg7.IsWhole) (arg8 : Memref sig .tc .vmem S1024x257 .bf16) (harg8 : arg8.IsWhole) (hc0 : ¬cond0_0 i) (x0 : Vec F S512x256 .f32) (x1 : Vec F S256x1024 .f32) (x2 : Vec F S1x1024 .f32) (x3 : Vec F S1024x257 .f32) (x4 : Vec F S1x257 .f32) (xs0 : Vec F S256x1024 .bf16) (xs1 : Vec F S1024x257 .bf16) :
    out0_B_5 c i arg1 harg1 arg2 harg2 arg3 harg3 arg4 harg4 arg5 harg5 arg6 harg6 arg7 harg7 arg8 harg8 hc0 x0 x1 x2 x3 x4 xs0 xs1 = blockOut x0 xs0 x2 xs1 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0 xs1)]
  unfold kernelRun0_B
  dsimp only
  sl_unfold_words
  simp only [View.readAt_eq_ld, harg1.read_unread, harg3.read_unread, harg5.read_unread, harg7.read_unread, harg8.read_unread,
    View.ld_unit_zero (S := S512x256) hz, View.ld_unit_zero (S := S256x1024) hz, View.ld_unit_zero (S := S1x1024) hz,
    View.ld_unit_zero (S := S1024x257) hz, View.ld_unit_zero (S := S1x257) hz]
  rfl

end Cert.KernelIdeal.Pieces

end
-- ==== Proof.Spec.lean ====
/-
  The specification: what both programs compute, as ONE function of the five argument arrays. Entry (r, a) of the
  result depends on row `r` of the states only; it is the masked, renormalised action distribution of that row
  (`MaskedPolicy.policy`) taken of the shifted exponentials of its logits.
  When the argument arrays hold real numbers the logits of every row are real, and then normalising first, masking
  and renormalising gives the same entry (`policyRef_eq_G`).
-/
import proofs.«120389_g48326972014685_cont_8to1_c_388_6_alg».proof.Proof.RowLaw
import Idealize.ShloMosaic.Lib.ValueIdx

noncomputable section

namespace MaskedPolicy

open Idealize.ShloMosaic Idealize.ShloMosaic.ValueIdx
open scoped BigOperators

/-- Row `r` of the array of states. -/
def stateRow (S : (⟨2, ![16384, 256]⟩ : Shape).Idx → EReal) (r : Fin 16384) : Fin 256 → EReal := fun k => S (ix2 r k)
/-- A matrix by its two coordinates. -/
def mat {a b : ℕ} (W : (⟨2, ![a, b]⟩ : Shape).Idx → EReal) : Fin a → Fin b → EReal := fun k j => W (ix2 k j)
/-- A vector by its coordinate. -/
def vec {a : ℕ} (B : (⟨1, ![a]⟩ : Shape).Idx → EReal) : Fin a → EReal := fun j => B (ix1 j)

section
variable (S : (⟨2, ![16384, 256]⟩ : Shape).Idx → EReal) (W1 : (⟨2, ![256, 1024]⟩ : Shape).Idx → EReal)
  (B1 : (⟨1, ![1024]⟩ : Shape).Idx → EReal) (W2 : (⟨2, ![1024, 257]⟩ : Shape).Idx → EReal) (B2 : (⟨1, ![257]⟩ : Shape).Idx → EReal)

/-- The logits of state row `r`. -/
def rowLogits (r : Fin 16384) : Fin 257 → EReal := logit (hid (stateRow S r) (mat W1) (vec B1)) (mat W2) (vec B2)

/-- THE RESULT ARRAY as one function of the argument arrays. -/
def G : (⟨2, ![16384, 257]⟩ : Shape).Idx → EReal :=
  fun i => policy (stateRow S (i 0)) (expo (rowLogits S W1 B1 W2 B2 (i 0))) (i 1)

theorem G_apply (r : Fin 16384) (a : Fin 257) :
    G S W1 B1 W2 B2 (ix2 r a) = policy (stateRow S r) (expo (rowLogits S W1 B1 W2 B2 r)) a := rfl
end

/-- Real argument arrays give real logits. -/
theorem rowLogits_real (S : (⟨2, ![16384, 256]⟩ : Shape).Idx → ℝ) (W1 : (⟨2, ![256, 1024]⟩ : Shape).Idx → ℝ)
    (B1 : (⟨1, ![1024]⟩ : Shape).Idx → ℝ) (W2 : (⟨2, ![1024, 257]⟩ : Shape).Idx → ℝ) (B2 : (⟨1, ![257]⟩ : Shape).Idx → ℝ)
    (r : Fin 16384) :
    ∃ l : Fin 257 → ℝ, rowLogits (fun i => (S i : EReal)) (fun i => (W1 i : EReal)) (fun i => (B1 i : EReal))
      (fun i => (W2 i : EReal)) (fun i => (B2 i : EReal)) r = fun a => (l a : EReal) := by
  refine ⟨fun a => (∑ j : Fin 1024, (max ((∑ k : Fin 256, S (ix2 r k) * W1 (ix2 k j)) + B1 (ix1 j)) 0) * W2 (ix2 j a)) + B2 (ix1 a),
    funext fun a => ?_⟩
  have hh : hid (stateRow (fun i => (S i : EReal)) r) (mat fun i => (W1 i : EReal)) (vec fun i => (B1 i : EReal))
      = fun j => ((max ((∑ k : Fin 256, S (ix2 r k) * W1 (ix2 k j)) + B1 (ix1 j)) 0 : ℝ) : EReal) :=
    funext fun j => hid_real (fun k => S (ix2 r k)) (fun k j => W1 (ix2 k j)) (fun j => B1 (ix1 j)) j
  unfold rowLogits
  rw [hh]
  exact logit_real _ (fun j a => W2 (ix2 j a)) (fun a => B2 (ix1 a)) a

/-- On real argument arrays, normalise-then-mask-then-renormalise of a row's shifted exponentials is the result array's entry. -/
theorem policyRef_eq_G (S : (⟨2, ![16384, 256]⟩ : Shape).Idx → ℝ) (W1 : (⟨2, ![256, 1024]⟩ : Shape).Idx → ℝ)
    (B1 : (⟨1, ![1024]⟩ : Shape).Idx → ℝ) (W2 : (⟨2, ![1024, 257]⟩ : Shape).Idx → ℝ) (B2 : (⟨1, ![257]⟩ : Shape).Idx → ℝ)
    (r : Fin 16384) (a : Fin 257) :
    policyRef (stateRow (fun i => (S i : EReal)) r)
        (expo (rowLogits (fun i => (S i : EReal)) (fun i => (W1 i : EReal)) (fun i => (B1 i : EReal))
          (fun i => (W2 i : EReal)) (fun i => (B2 i : EReal)) r)) a
      = G (fun i => (S i : EReal)) (fun i => (W1 i : EReal)) (fun i => (B1 i : EReal))
          (fun i => (W2 i : EReal)) (fun i => (B2 i : EReal)) (ix2 r a) := by
  rw [G_apply]
  obtain ⟨l, hl⟩ := rowLogits_real S W1 B1 W2 B2 r
  rw [hl]
  exact policyRef_expo_eq _ l a

end MaskedPolicy

end
-- ==== Proof.KernelWhole.lean ====
/-
  The idealized kernel's result array, as one function of the argument arrays.

  The grid has 32 points; point `t` sees rows 512·t … 512·t + 511 of the states and writes back the same rows of the
  result. The two weight matrices and the two bias rows are the same whole arrays at every point. The scratch buffers
  are filled with the narrowed weights at point 0 and never written again, so by induction on the point they hold the
  narrowed weights after every point; hence the block written back at point `t` is `blockOut` of that point's state rows,
  the narrowed weights and the biases, and entry (r, a) of it is the specification's entry at row 512·t + r. The 32 blocks
  cover the result array.
-/
import proofs.«120389_g48326972014685_cont_8to1_c_388_6_alg».proof.Proof.Gen.KernelIdeal.Value
import proofs.«120389_g48326972014685_cont_8to1_c_388_6_alg».proof.Proof.KernelPieces
import proofs.«120389_g48326972014685_cont_8to1_c_388_6_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.Block Cert.KernelIdeal.Pieces
open Idealize.ShloMosaic Idealize.ShloMosaic.TcCoe Idealize.SL.Sem Idealize.ShloMosaic.ValueIdx MaskedPolicy
open Idealize.ShloMosaic.Pipeline (Dat)

/-- The printed index maps, decided over the 32 points: the states' and the result's windows move down the rows with the
    point, every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section AnyInstance

variable {F : FTy → Type} [FloatOps F]
variable (m : (ℓ : Loc nD τ sig) → Buf (Elt F) ℓ)

/-- The first weight matrix's window is the whole array at every point. -/
theorem iblk1_eq (c : Dev nD) (t : Fin cfg0.N) : (iblk m c 1 t : Vec F S256x1024 .f32) = V m c main_arg1 := by
  obtain ⟨-, -, e0, e1, -⟩ := idx_facts t
  refine funext fun (j : S256x1024.Idx) => ?_
  show V m c main_arg1 (((cfg0.win 1).blk t).view.emb j) = V m c main_arg1 j
  refine congrArg (V m c main_arg1) (funext fun a => Fin.ext ?_)
  match a with
  | ⟨0, _⟩ => show win0_1.index t (0 : Fin 2) * 256 + 1 * (j 0).val = (j 0).val; rw [e0]; omega
  | ⟨1, _⟩ => show win0_1.index t (1 : Fin 2) * 1024 + 1 * (j 1).val = (j 1).val; rw [e1]; omega

/-- The second weight matrix's window is the whole array at every point. -/
theorem iblk3_eq (c : Dev nD) (t : Fin cfg0.N) : (iblk m c 3 t : Vec F S1024x257 .f32) = V m c main_arg3 := by
  obtain ⟨-, -, -, -, -, -, e0, e1, -⟩ := idx_facts t
  refine funext fun (j : S1024x257.Idx) => ?_
  show V m c main_arg3 (((cfg0.win 3).blk t).view.emb j) = V m c main_arg3 j
  refine congrArg (V m c main_arg3) (funext fun a => Fin.ext ?_)
  match a with
  | ⟨0, _⟩ => show win0_3.index t (0 : Fin 2) * 1024 + 1 * (j 0).val = (j 0).val; rw [e0]; omega
  | ⟨1, _⟩ => show win0_3.index t (1 : Fin 2) * 257 + 1 * (j 1).val = (j 1).val; rw [e1]; omega

/-- After the first point: the output block, and the two scratch buffers at the narrowed weights. -/
theorem outsAt_first (c : Dev nD) (t : Fin cfg0.N) (h0 : t.val % 32 = 0) :
    outsAt0 m c t.val t.isLt
      = (blockOut (iblk m c 0 t) (k0_pay2 (iblk m c 1 t)) (iblk m c 2 t) (k0_pay3 (iblk m c 3 t)) (iblk m c 4 t),
          k0_pay2 (iblk m c 1 t), k0_pay3 (iblk m c 3 t)) := by
  rw [outsAt0_A m c t h0, out_first, scratch0_first, scratch1_first]

/-- After a later point: the output block from what the scratch buffers held, which they still hold. -/
theorem outsAt_later (c : Dev nD) (t : Fin cfg0.N) (h0 : ¬t.val % 32 = 0) :
    outsAt0 m c t.val t.isLt
      = (blockOut (iblk m c 0 t) (outsAt0 m c (t.val - 1) (Nat.lt_of_le_of_lt (Nat.sub_le _ _) t.isLt)).2.1 (iblk m c 2 t)
            (outsAt0 m c (t.val - 1) (Nat.lt_of_le_of_lt (Nat.sub_le _ _) t.isLt)).2.2 (iblk m c 4 t),
          (outsAt0 m c (t.val - 1) (Nat.lt_of_le_of_lt (Nat.sub_le _ _) t.isLt)).2.1,
          (outsAt0 m c (t.val - 1) (Nat.lt_of_le_of_lt (Nat.sub_le _ _) t.isLt)).2.2) := by
  rw [outsAt0_B m c t h0, out_later]
  rfl

/-- THE INVARIANT: after every point the scratch buffers hold the two weight matrices, narrowed. -/
theorem scratch_inv (c : Dev nD) : ∀ (n : ℕ) (hn : n < cfg0.N),
    (outsAt0 m c n hn).2.1 = k0_pay2 (V m c main_arg1 : Vec F S256x1024 .f32)
      ∧ (outsAt0 m c n hn).2.2 = k0_pay3 (V m c main_arg3 : Vec F S1024x257 .f32)
  | 0, hn => by
    have e : outsAt0 m c 0 hn = _ := outsAt_first m c ⟨0, hn⟩ rfl
    rw [e]
    dsimp only
    rw [iblk1_eq, iblk3_eq]
    exact ⟨rfl, rfl⟩
  | n + 1, hn => by
    have hN : cfg0.N = 32 := N_0
    have hB : ¬(⟨n + 1, hn⟩ : Fin cfg0.N).val % 32 = 0 := by dsimp only; omega
    have e : outsAt0 m c (n + 1) hn = _ := outsAt_later m c ⟨n + 1, hn⟩ hB
    rw [e]
    exact scratch_inv c n (Nat.lt_of_succ_lt hn)

/-- So at every point the output block is `blockOut` of the point's state rows, the narrowed weights and the biases. -/
theorem out_eq (c : Dev nD) (t : Fin cfg0.N) :
    (outsAt0 m c t.val t.isLt).1
      = blockOut (iblk m c 0 t) (k0_pay2 (V m c main_arg1 : Vec F S256x1024 .f32)) (iblk m c 2 t)
          (k0_pay3 (V m c main_arg3 : Vec F S1024x257 .f32)) (iblk m c 4 t) := by
  by_cases h0 : t.val % 32 = 0
  · rw [outsAt_first m c t h0]
    dsimp only
    rw [iblk1_eq, iblk3_eq]
  · rw [outsAt_later m c t h0]
    dsimp only
    rw [(scratch_inv m c (t.val - 1) (Nat.lt_of_le_of_lt (Nat.sub_le _ _) t.isLt)).1,
      (scratch_inv m c (t.val - 1) (Nat.lt_of_le_of_lt (Nat.sub_le _ _) t.isLt)).2]

end AnyInstance

/-! ## On the extended reals -/

variable (m : (ℓ : Loc nD τ sig) → Buf (Elt Ideal) ℓ) (ρ : Dev nD → PrngReg)

/-- The five argument arrays as launched. -/
abbrev states (c : Dev nD) : S16384x256.Idx → EReal := m ((c : Thread nD τ).loc main_arg0)
abbrev weights1 (c : Dev nD) : S256x1024.Idx → EReal := m ((c : Thread nD τ).loc main_arg1)
abbrev bias1 (c : Dev nD) : S1024.Idx → EReal := m ((c : Thread nD τ).loc main_arg2)
abbrev weights2 (c : Dev nD) : S1024x257.Idx → EReal := m ((c : Thread nD τ).loc main_arg3)
abbrev bias2 (c : Dev nD) : S257.Idx → EReal := m ((c : Thread nD τ).loc main_arg4)

/-- THE RESULT: the specification of the argument arrays as launched. -/
abbrev result (c : Dev nD) : Buf (Elt Ideal) ((c : Thread nD τ).loc main_v2) :=
  G (states m c) (weights1 m c) (bias1 m c) (weights2 m c) (bias2 m c)

/-- The first bias, recast as a row before the region, as the region finds it. -/
theorem V_bias1 (c : Dev nD) :
    (V m c main_v0 : S1x1024.Idx → EReal) = shapeCast S1x1024 (bias1 m c) shapeCasts_S1024_S1x1024 := by
  dsimp only [Gen.V, Gen.hostOps0]; after_results; rfl

/-- The second bias, recast as a row before the region, as the region finds it. -/
theorem V_bias2 (c : Dev nD) :
    (V m c main_v1 : S1x257.Idx → EReal) = shapeCast S1x257 (bias2 m c) shapeCasts_S257_S1x257 := by
  dsimp only [Gen.V, Gen.hostOps0]; after_results; rfl

/-- Entry (r, a) of the block written back at point `t` is the specification's entry at row 512·t + r. -/
theorem entry_eq (c : Dev nD) (t : Fin cfg0.N) (r : Fin 512) (a : Fin 257) (R : Fin 16384) (hR : R.val = 512 * t.val + r.val) :
    blockOut (F := Ideal) (iblk m c 0 t) (k0_pay2 (V m c main_arg1 : Vec Ideal S256x1024 .f32)) (iblk m c 2 t)
        (k0_pay3 (V m c main_arg3 : Vec Ideal S1024x257 .f32)) (iblk m c 4 t) (ix2 r a)
      = result m c (ix2 R a) := by
  obtain ⟨e00, e01, -, -, e20, e21, -, -, e40, e41, -, -⟩ := idx_facts t
  rw [blockOut_apply]
  show _ = policy (stateRow (states m c) R) (expo (rowLogits (states m c) (weights1 m c) (bias1 m c) (weights2 m c) (bias2 m c) R)) a
  have hs : Row.srow (iblk m c 0 t) r = stateRow (states m c) R := funext fun k => by
    show V m c main_arg0 (((cfg0.win 0).blk t).view.emb (ix2 r k)) = m ((c : Thread nD τ).loc main_arg0) (ix2 R k)
    rw [V_main_arg0]
    refine congrArg (m ((c : Thread nD τ).loc main_arg0)) (funext fun ax => Fin.ext ?_)
    match ax with
    | ⟨0, _⟩ => show win0_0.index t (0 : Fin 2) * 512 + 1 * r.val = R.val; rw [e00]; omega
    | ⟨1, _⟩ => show win0_0.index t (1 : Fin 2) * 256 + 1 * k.val = k.val; rw [e01]; omega
  have hW1 : Row.W1f (k0_pay2 (V m c main_arg1 : Vec Ideal S256x1024 .f32)) = mat (weights1 m c) := funext fun k => funext fun j => by
    refine (congrFun (shapeCast_self (truncf (F := Ideal) .bf16 (V m c main_arg1 : FVec Ideal S256x1024 .f32) bitsLt_bf16_f32)
      shapeCasts_S256x1024_S256x1024) (ix2 k j)).trans ?_
    exact congrFun (V_main_arg1 m c) (ix2 k j)
  have hW2 : Row.W2f (k0_pay3 (V m c main_arg3 : Vec Ideal S1024x257 .f32)) = mat (weights2 m c) := funext fun k => funext fun j => by
    refine (congrFun (shapeCast_self (truncf (F := Ideal) .bf16 (V m c main_arg3 : FVec Ideal S1024x257 .f32) bitsLt_bf16_f32)
      shapeCasts_S1024x257_S1024x257) (ix2 k j)).trans ?_
    exact congrFun (V_main_arg3 m c) (ix2 k j)
  have hb1 : Row.b1f (iblk m c 2 t) = vec (bias1 m c) := funext fun j => by
    show (V m c main_v0 : S1x1024.Idx → EReal) (((cfg0.win 2).blk t).view.emb (ix2 (0 : Fin 1) j)) = bias1 m c (ix1 j)
    have he : ((cfg0.win 2).blk t).view.emb (ix2 (0 : Fin 1) j) = (ix2 (0 : Fin 1) j : S1x1024.Idx) := funext fun ax => Fin.ext (by
      match ax with
      | ⟨0, _⟩ => show win0_2.index t (0 : Fin 2) * 1 + 1 * 0 = 0; rw [e20]
      | ⟨1, _⟩ => show win0_2.index t (1 : Fin 2) * 1024 + 1 * j.val = j.val; rw [e21]; omega)
    rw [he, V_bias1]
    exact shapeCast_a_1a_apply _ _ 0 j
  have hb2 : Row.b2f (iblk m c 4 t) = vec (bias2 m c) := funext fun j => by
    show (V m c main_v1 : S1x257.Idx → EReal) (((cfg0.win 4).blk t).view.emb (ix2 (0 : Fin 1) j)) = bias2 m c (ix1 j)
    have he : ((cfg0.win 4).blk t).view.emb (ix2 (0 : Fin 1) j) = (ix2 (0 : Fin 1) j : S1x257.Idx) := funext fun ax => Fin.ext (by
      match ax with
      | ⟨0, _⟩ => show win0_4.index t (0 : Fin 2) * 1 + 1 * 0 = 0; rw [e40]
      | ⟨1, _⟩ => show win0_4.index t (1 : Fin 2) * 257 + 1 * j.val = j.val; rw [e41]; omega)
    rw [he, V_bias2]
    exact shapeCast_a_1a_apply _ _ 0 j
  unfold Row.lrow rowLogits
  rw [hs, hW1, hW2, hb1, hb2]

/-- WHAT POINT `t` WRITES BACK is block `t` of the result. -/
theorem flushed_eq (c : Dev nD) (t : Fin cfg0.N) :
    (dats m 0 c).flushed 5 t = ((cfg0.win 5).blk t).view.read (Elt Ideal) (result m c) := by
  obtain ⟨-, -, -, -, -, -, -, -, -, -, e50, e51⟩ := idx_facts t
  rw [Value.flushed5, out_eq]
  refine funext fun (j : S512x257.Idx) => ?_
  obtain ⟨r, a, rfl⟩ : ∃ (r : Fin 512) (a : Fin 257), j = ix2 r a := ⟨j 0, j 1, eq_ix2 j⟩
  have hN : cfg0.N = 32 := N_0
  have hR : 512 * t.val + r.val < 16384 := by have := t.isLt; have := r.isLt; omega
  show blockOut (F := Ideal) (iblk m c 0 t) (k0_pay2 (V m c main_arg1 : Vec Ideal S256x1024 .f32)) (iblk m c 2 t)
      (k0_pay3 (V m c main_arg3 : Vec Ideal S1024x257 .f32)) (iblk m c 4 t) (ix2 r a)
    = result m c (((cfg0.win 5).blk t).view.emb (ix2 r a))
  have hemb : ((cfg0.win 5).blk t).view.emb (ix2 r a) = (ix2 (⟨512 * t.val + r.val, hR⟩ : Fin 16384) a : S16384x257.Idx) :=
    funext fun ax => Fin.ext (by
      match ax with
      | ⟨0, _⟩ => show win0_5.index t (0 : Fin 2) * 512 + 1 * r.val = 512 * t.val + r.val; rw [e50]; omega
      | ⟨1, _⟩ => show win0_5.index t (1 : Fin 2) * 257 + 1 * a.val = a.val; rw [e51]; omega)
  rw [hemb]
  exact entry_eq m c t r a ⟨512 * t.val + r.val, hR⟩ rfl

/-- Every entry of the result lies in the block of the point its row belongs to. -/
theorem cover (c : Dev nD) (i : S16384x257.Idx) :
    ∃ t : Fin cfg0.N, (cfg0.win 5).flush t = true ∧ i ∈ ((cfg0.win 5).blk t).view.set := by
  have hN : cfg0.N = 32 := N_0
  have hi0 : (i 0).val < 16384 := (i 0).isLt
  have hi1 : (i 1).val < 257 := (i 1).isLt
  have ht : (i 0).val / 512 < cfg0.N := by omega
  obtain ⟨-, -, -, -, -, -, -, -, -, -, e50, e51⟩ := idx_facts ⟨(i 0).val / 512, ht⟩
  refine ⟨⟨(i 0).val / 512, ht⟩, flush0_5 _, ?_⟩
  show i ∈ ((View.whole main_v2).slice (win0_5.rect ⟨(i 0).val / 512, ht⟩)).set
  rw [View.set_slice_whole, Rect.mem_set_unit]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e50]
    show (i 0).val / 512 * 512 ≤ (i 0).val ∧ (i 0).val < (i 0).val / 512 * 512 + 512
    omega
  | ⟨1, _⟩ =>
    show win0_5.index ⟨(i 0).val / 512, ht⟩ (1 : Fin 2) * 257 ≤ (i 1).val
      ∧ (i 1).val < win0_5.index ⟨(i 0).val / 512, ht⟩ (1 : Fin 2) * 257 + 257
    rw [e51]
    omega

/-- THE RESULT ARRAY after the run is the specification of the argument arrays. -/
theorem final (c : Dev nD) : (dats m 0 c).arrAt 5 cfg0.N = result m c :=
  (dats m 0 c).arrAt_eq_of_cover 5 (result m c) (fun t _ => flushed_eq m c t) (cover c)

/-- The run, read: the result array at the specification, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.RefValue.lean ====
/-
  The reference program read one entry at a time, on the extended reals: entry (r, a) of its result is the
  normalise-then-mask-then-renormalise arrangement (`MaskedPolicy.policyRef`) of the shifted exponentials of state row
  `r`'s logits; and when the argument arrays hold real numbers, that is the specification's entry.
-/
import proofs.«120389_g48326972014685_cont_8to1_c_388_6_alg».proof.Proof.Gen.ReferenceIdeal.Read
import proofs.«120389_g48326972014685_cont_8to1_c_388_6_alg».proof.Proof.Spec
import proofs.«120389_g48326972014685_cont_8to1_c_388_6_alg».proof.Proof.LibJoinLayout
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx MaskedPolicy
open scoped BigOperators

variable (x0 : FVec Ideal S16384x256 .f32) (x1 : FVec Ideal S256x1024 .f32) (x2 : FVec Ideal S1024 .f32)
  (x3 : FVec Ideal S1024x257 .f32) (x4 : FVec Ideal S257 .f32)

/-- The hidden layer at (r, j). -/
theorem ref_hid (r : Fin 16384) (j : Fin 1024) :
    val_main_v4 (F := Ideal) x0 x1 x2 (ix2 r j) = hid (stateRow x0 r) (mat x1) (vec x2) j := by
  have e1 : ∀ k : Fin 256, lidx_main_v0 (ix2 r j) k = ix2 r k := fun k =>
    funext fun a => Fin.ext (by match a with | ⟨0, _⟩ => rfl | ⟨1, _⟩ => rfl)
  have e2 : ∀ k : Fin 256, ridx_main_v0 (ix2 r j) k = ix2 k j := fun k =>
    funext fun a => Fin.ext (by match a with | ⟨0, _⟩ => rfl | ⟨1, _⟩ => rfl)
  have e3 : idx_main_v1 (idx_main_v2 (ix2 r j)) = ix1 j :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [e1, e2, e3]
  show max ((∑ k : Fin 256, x0 (ix2 r k) * x1 (ix2 k j)) + x2 (ix1 j)) (Ideal.ofBits .f32 0x00000000#32) = _
  rw [Ideal.ofBits_zero_f32]
  rfl

/-- The logits at (r, a). -/
theorem ref_logit (r : Fin 16384) (a : Fin 257) :
    val_main_v8 (F := Ideal) x0 x1 x2 x3 x4 (ix2 r a) = rowLogits x0 x1 x2 x3 x4 r a := by
  have e1 : ∀ k : Fin 1024, lidx_main_v5 (ix2 r a) k = ix2 r k := fun k =>
    funext fun b => Fin.ext (by match b with | ⟨0, _⟩ => rfl | ⟨1, _⟩ => rfl)
  have e2 : ∀ k : Fin 1024, ridx_main_v5 (ix2 r a) k = ix2 k a := fun k =>
    funext fun b => Fin.ext (by match b with | ⟨0, _⟩ => rfl | ⟨1, _⟩ => rfl)
  have e3 : idx_main_v6 (idx_main_v7 (ix2 r a)) = ix1 a :=
    funext fun b => Fin.ext (by match b with | ⟨0, _⟩ => rfl)
  rw [val_main_v8_apply, val_main_v5_apply, val_main_v7_apply, val_main_v6_apply]
  simp only [e1, e2, e3, ref_hid]
  rfl

/-- The reduction over the 257 actions. -/
theorem hred : S16384x257.Reduces [1] S16384 := by decide

theorem lift_eq (r : Fin 16384) (k : Fin 257) : hred.lift (ix1 r) k = ix2 r k :=
  funext fun a => Fin.ext (by match a with | ⟨0, _⟩ => rfl | ⟨1, _⟩ => rfl)

/-- The row maximum at r: the fold of max from minus infinity over the row's logits (taking the maximum with minus
    infinity once more changes nothing). -/
theorem ref_max (r : Fin 16384) :
    val_main_v11 (F := Ideal) x0 x1 x2 x3 x4 (ix1 r) = rowMax (rowLogits x0 x1 x2 x3 x4 r) := by
  have h9 : val_main_v9 (F := Ideal) x0 x1 x2 x3 x4 (ix1 r) = rowMax (rowLogits x0 x1 x2 x3 x4 r) := by
    unfold val_main_v9
    refine (Host.reduce_eq_fold_single (α := EReal) (FloatOps.maximumf (F := Ideal) (φ := .f32)) (val_main_v8 (F := Ideal) x0 x1 x2 x3 x4) (val_main_cst (F := Ideal))
      reducesTo_S16384x257_S16384_d1 hred h_S_ (ix1 r)).trans ?_
    have hf : (val_main_v8 (F := Ideal) x0 x1 x2 x3 x4 ∘ hred.lift (ix1 r)) = rowLogits x0 x1 x2 x3 x4 r :=
      funext fun (k : Fin 257) => (congrArg (val_main_v8 (F := Ideal) x0 x1 x2 x3 x4) (lift_eq r k)).trans (ref_logit x0 x1 x2 x3 x4 r k)
    rw [hf]
    rfl
  rw [val_main_v11_apply, val_main_v10_apply, val_main_cst_0_apply, h9]
  show max ninf _ = _
  exact max_eq_right (by rw [ninf_eq]; exact bot_le)

/-- The shifted exponential at (r, a). -/
theorem ref_exp (r : Fin 16384) (a : Fin 257) :
    val_main_v15 (F := Ideal) x0 x1 x2 x3 x4 (ix2 r a) = expo (rowLogits x0 x1 x2 x3 x4 r) a := by
  have e : idx_main_v12 (idx_main_v13 (ix2 r a)) = ix1 r :=
    funext fun b => Fin.ext (by match b with | ⟨0, _⟩ => rfl)
  rw [val_main_v15_apply, val_main_v14_apply, val_main_v13_apply, val_main_v12_apply, e, ref_max, ref_logit]
  rfl

/-- The softmax at (r, a). -/
theorem ref_soft (r : Fin 16384) (a : Fin 257) :
    val_main_v19 (F := Ideal) x0 x1 x2 x3 x4 (ix2 r a) = softmax (expo (rowLogits x0 x1 x2 x3 x4 r)) a := by
  have e : idx_main_v17 (idx_main_v18 (ix2 r a)) = ix1 r :=
    funext fun b => Fin.ext (by match b with | ⟨0, _⟩ => rfl)
  have e2 : ∀ k : Fin 257, idx_main_v16 (ix1 r) k = ix2 r k := fun k =>
    funext fun b => Fin.ext (by match b with | ⟨0, _⟩ => rfl | ⟨1, _⟩ => rfl)
  rw [val_main_v19_apply, val_main_v18_apply, val_main_v17_apply, e, val_main_v16_apply, val_main_cst_1_apply]
  simp only [e2, ref_exp]
  show Ideal.div _ (Ideal.ofBits .f32 0x00000000#32 + _) = _
  rw [Ideal.ofBits_zero_f32]
  rfl

/-- A 0/1 word read as a float is 1 when "x below y" holds and 0 otherwise. -/
theorem uitofp_olt (x y : EReal) :
    FloatOps.uitofp (F := Ideal) .f32 (Ideal.cmp .olt x y) = if x < y then 1 else 0 := by
  show (((Ideal.cmp .olt x y).toNat : ℝ) : EReal) = _
  unfold Ideal.cmp
  by_cases h : x < y <;> simp [h]

theorem one_eq : Ideal.ofBits .f32 0x3F800000#32 = 1 := by
  simp [Ideal.ofBits, Ideal.ieee, -EReal.coe_mul]; norm_num

/-- The legality mask at (r, a): the comparison's word for the 256 first actions, the constant one for the last. -/
theorem ref_mask (r : Fin 16384) (a : Fin 257) :
    val_main_v24 (F := Ideal) x0 (ix2 r a) = mask (stateRow x0 r) a := by
  unfold val_main_v24 mask
  by_cases h : a.val < 256
  · rw [dif_pos h, JoinLayout.concatenate_cols_left _ _ _ r a (⟨a.val, h⟩ : Fin 256) rfl, val_main_v22_apply, val_main_v21_apply,
      val_main_v20_apply, val_main_cst_2_apply]
    exact uitofp_olt _ _
  · have ha : a.val = 256 := by have := a.isLt; omega
    rw [dif_neg h, JoinLayout.concatenate_cols_right _ _ _ r a (0 : Fin 1) (by show 0 + 256 = a.val; omega), val_main_v23_apply,
      val_main_cst_3_apply]
    exact one_eq

/-- The masked probability at (r, a). -/
theorem ref_masked (r : Fin 16384) (a : Fin 257) :
    val_main_v25 (F := Ideal) x0 x1 x2 x3 x4 (ix2 r a) = masked (stateRow x0 r) (expo (rowLogits x0 x1 x2 x3 x4 r)) a := by
  rw [val_main_v25_apply, ref_mask, ref_soft]
  rfl

/-- The result at (r, a): the masked probability over the row's masked sum. -/
theorem ref_out (r : Fin 16384) (a : Fin 257) :
    val_main_v29 (F := Ideal) x0 x1 x2 x3 x4 (ix2 r a)
      = policyRef (stateRow x0 r) (expo (rowLogits x0 x1 x2 x3 x4 r)) a := by
  have e : idx_main_v27 (idx_main_v28 (ix2 r a)) = ix1 r :=
    funext fun b => Fin.ext (by match b with | ⟨0, _⟩ => rfl)
  have e2 : ∀ k : Fin 257, idx_main_v26 (ix1 r) k = ix2 r k := fun k =>
    funext fun b => Fin.ext (by match b with | ⟨0, _⟩ => rfl | ⟨1, _⟩ => rfl)
  rw [val_main_v29_apply, val_main_v28_apply, val_main_v27_apply, e, val_main_v26_apply, val_main_cst_4_apply]
  simp only [e2, ref_masked]
  show Ideal.div _ (Ideal.ofBits .f32 0x00000000#32 + _) = _
  rw [Ideal.ofBits_zero_f32]
  rfl

end Cert.ReferenceIdeal.RefValue

namespace Cert.ReferenceIdeal.RefValue

open Cert.ReferenceIdeal Cert.ReferenceIdeal.Gen Cert.ReferenceIdeal.Read
open Idealize.ShloMosaic Idealize.ShloMosaic.ValueIdx MaskedPolicy

/-- On real argument arrays the reference's result array is the specification. -/
theorem result_eq_G (x0 : S16384x256.Idx → ℝ) (x1 : S256x1024.Idx → ℝ) (x2 : S1024.Idx → ℝ) (x3 : S1024x257.Idx → ℝ)
    (x4 : S257.Idx → ℝ) :
    val_main_v29 (F := Ideal) (fun i => (x0 i : EReal)) (fun i => (x1 i : EReal)) (fun i => (x2 i : EReal))
        (fun i => (x3 i : EReal)) (fun i => (x4 i : EReal))
      = G (fun i => (x0 i : EReal)) (fun i => (x1 i : EReal)) (fun i => (x2 i : EReal))
        (fun i => (x3 i : EReal)) (fun i => (x4 i : EReal)) := by
  funext i
  obtain ⟨r, a, rfl⟩ : ∃ (r : Fin 16384) (a : Fin 257), i = ix2 r a := ⟨i 0, i 1, eq_ix2 i⟩
  rw [ref_out]
  exact policyRef_eq_G x0 x1 x2 x3 x4 r a

end Cert.ReferenceIdeal.RefValue

end
-- ==== Proof.Finite.lean ====
/-
  What the precondition says: every entry of every argument array is a real number. The precondition is the
  conjunction, over the five arrays, of "all entries have absolute value below plus infinity"; on the extended reals
  an entry whose absolute value `max x (-x)` is below plus infinity is neither infinity.
-/
import proofs.«120389_g48326972014685_cont_8to1_c_388_6_alg».proof.Pre_finite_inputs
import proofs.«120389_g48326972014685_cont_8to1_c_388_6_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Under the precondition every entry of each of the five argument arrays is a real. -/
theorem reals_of_pre (a0 : FVec Ideal S16384x256 .f32) (a1 : FVec Ideal S256x1024 .f32) (a2 : FVec Ideal S1024 .f32)
    (a3 : FVec Ideal S1024x257 .f32) (a4 : FVec Ideal S257 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h1234, e4⟩ := IntOp.andi_eq_one.1 h0
  obtain ⟨h123, e3⟩ := IntOp.andi_eq_one.1 h1234
  obtain ⟨h12, e2⟩ := IntOp.andi_eq_one.1 h123
  obtain ⟨e0, e1⟩ := IntOp.andi_eq_one.1 h12
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i)⟩

end Cert.Pre_finite_inputs.Finite

end
-- ==== Proof.lean ====
/-
  A two-layer policy network followed by a masked, renormalised softmax, computed two ways.

  For each of the 16384 state rows `s` the logits are `l = max (s · W1 + b1) 0 · W2 + b2` (257 of them) and
  `e a = exp (l a - max l)`. The first 256 actions are legal while `s a < 2`; the last one always is.
    * The fused program keeps the legal exponentials and divides them by their sum plus the last exponential.
    * The reference first forms the softmax `e a / ∑ e`, multiplies by the 0/1 mask, and divides by the sum of the
      masked probabilities.
  On the extended reals the two agree entry by entry once the inputs are finite: the logits are then real, so `∑ e` is
  a positive real and cancels, and the legal mass is at least the last exponential, hence positive
  (`MaskedPolicy.policyRef_eq`). Both results are the one function `MaskedPolicy.G` of the five argument arrays.

  The fused program walks the rows in 32 blocks of 512 and keeps bf16 copies of the two weight matrices in scratch
  buffers written at the first block only; on the extended reals a change of float format is the identity, so every
  block sees the weights themselves (`Cert.KernelIdeal.Whole.scratch_inv`), and the 32 blocks written back tile the result
  (`Cert.KernelIdeal.Whole.final`). The reference is read one operation at a time (`Cert.ReferenceIdeal.RefValue`).
  The three programs' runs end with the argument arrays unchanged; the idealization rewrote no operation.
-/
import proofs.«120389_g48326972014685_cont_8to1_c_388_6_alg».proof.Defs
import proofs.«120389_g48326972014685_cont_8to1_c_388_6_alg».proof.Proof.Gen.Kernel
import proofs.«120389_g48326972014685_cont_8to1_c_388_6_alg».proof.Proof.Gen.Kernel.Skeleton
import proofs.«120389_g48326972014685_cont_8to1_c_388_6_alg».proof.Proof.Gen.Kernel.Launch
import proofs.«120389_g48326972014685_cont_8to1_c_388_6_alg».proof.Proof.Gen.Kernel.Points
import proofs.«120389_g48326972014685_cont_8to1_c_388_6_alg».proof.Proof.Gen.Kernel.Frame
import proofs.«120389_g48326972014685_cont_8to1_c_388_6_alg».proof.Proof.Gen.KernelIdeal
import proofs.«120389_g48326972014685_cont_8to1_c_388_6_alg».proof.Proof.Gen.KernelIdeal.Skeleton
import proofs.«120389_g48326972014685_cont_8to1_c_388_6_alg».proof.Proof.Gen.KernelIdeal.Launch
import proofs.«120389_g48326972014685_cont_8to1_c_388_6_alg».proof.Proof.Gen.KernelIdeal.Points
import proofs.«120389_g48326972014685_cont_8to1_c_388_6_alg».proof.Proof.Gen.KernelIdeal.Frame
import proofs.«120389_g48326972014685_cont_8to1_c_388_6_alg».proof.Proof.Gen.ReferenceIdeal
import proofs.«120389_g48326972014685_cont_8to1_c_388_6_alg».proof.Proof.Gen.Pre_finite_inputs
import proofs.«120389_g48326972014685_cont_8to1_c_388_6_alg».proof.Proof.Gen.KernelIdeal.Value
import proofs.«120389_g48326972014685_cont_8to1_c_388_6_alg».proof.Proof.Gen.ReferenceIdeal.Run
import proofs.«120389_g48326972014685_cont_8to1_c_388_6_alg».proof.Proof.Gen.ReferenceIdeal.Read
import proofs.«120389_g48326972014685_cont_8to1_c_388_6_alg».proof.Proof.KernelWhole
import proofs.«120389_g48326972014685_cont_8to1_c_388_6_alg».proof.Proof.RefValue
import proofs.«120389_g48326972014685_cont_8to1_c_388_6_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs both idealized programs end with the specification of the argument arrays in their result. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.Pre_finite_inputs.Finite.reals_of_pre _ _ _ _ _ (hpre c)
  choose f0 hf0 using h0
  choose f1 hf1 using h1
  choose f2 hf2 using h2
  choose f3 hf3 using h3
  choose f4 hf4 using h4
  rw [Cert.ReferenceIdeal.Read.val_main_v29_eq, (hagree c).1, (hagree c).2.1, (hagree c).2.2.1, (hagree c).2.2.2.1,
    (hagree c).2.2.2.2]
  show Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
    = MaskedPolicy.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
  rw [show m ((c.tc : Thread Cert.KernelIdeal.nD Cert.KernelIdeal.τ).loc Cert.KernelIdeal.main_arg0) = (fun i => (f0 i : EReal)) from funext hf0,
    show m ((c.tc : Thread Cert.KernelIdeal.nD Cert.KernelIdeal.τ).loc Cert.KernelIdeal.main_arg1) = (fun i => (f1 i : EReal)) from funext hf1,
    show m ((c.tc : Thread Cert.KernelIdeal.nD Cert.KernelIdeal.τ).loc Cert.KernelIdeal.main_arg2) = (fun i => (f2 i : EReal)) from funext hf2,
    show m ((c.tc : Thread Cert.KernelIdeal.nD Cert.KernelIdeal.τ).loc Cert.KernelIdeal.main_arg3) = (fun i => (f3 i : EReal)) from funext hf3,
    show m ((c.tc : Thread Cert.KernelIdeal.nD Cert.KernelIdeal.τ).loc Cert.KernelIdeal.main_arg4) = (fun i => (f4 i : EReal)) from funext hf4]
  exact Cert.ReferenceIdeal.RefValue.result_eq_G f0 f1 f2 f3 f4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
